-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 39
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x128, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .bf16⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S128x128, .f32⟩
  | .hbm, ⟨37, _⟩ => ⟨S1x128, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S50000x128, .f32⟩
  | .hbm, ⟨6, _⟩ => ⟨S1x128, .f32⟩
  | .hbm, ⟨7, _⟩ => ⟨S50000x128, .f32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S_, .i32⟩
  | .hbm, ⟨29, _⟩ => ⟨S50000, .i32⟩
  | .hbm, ⟨30, _⟩ => ⟨S800000x1, .i32⟩
  | .hbm, ⟨31, _⟩ => ⟨S50000, .i32⟩
  | .hbm, ⟨32, _⟩ => ⟨S50000x128, .f32⟩
  | .hbm, ⟨33, _⟩ => ⟨S_, .i32⟩
  | .hbm, ⟨34, _⟩ => ⟨S50000, .i32⟩
  | .hbm, ⟨35, _⟩ => ⟨S50000, .i32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelPoints.lean ====
/-
  The kernel's blocks at a grid point, read off ANY array.

  The grid has ten points; point t works on rows 5000·t … 5000·t + 4999. Through the windows of x, of the aggregate of raw
  rows and of the reciprocal column a point reads those rows of whatever array the window is on (block row t, block
  column 0); through the windows of the transposed weights and of the bias row it reads the array whole (block (0, 0)).
  A block's coordinate along an axis is always block index × block size + the coordinate inside the block. The array is
  left a variable: which array the region finds there is a separate matter.
-/
import proofs.«112478_j71159018160288_2_alg».proof.Proof.Gen.KernelIdeal.Value
import Idealize.ShloMosaic.PureOps.Ideal

noncomputable section

open scoped BigOperators

namespace Cert.KernelPoints

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The printed index maps over the ten grid points: the three row-blocked inputs and the output are at block row t,
    block column 0; the weights and the bias row are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := lt_of_lt_of_eq t.isLt N_0

/-- Through window 0: rows 5000·t … of an array [50000, 128]. -/
theorem read_rows0 (t : Fin cfg0.N) (G : S50000x128.Idx → EReal) (x : S5000x128.Idx) (k : S50000x128.Idx)
    (hk0 : (k 0).val = 5000 * t.val + (x 0).val) (hk1 : (k 1).val = (x 1).val) :
    (((cfg0.win 0).blk t).view.read (Elt Ideal) G : Vec Ideal S5000x128 .f32) x = G k := by
  obtain ⟨e0, e1, -⟩ := idx_facts t
  rw [View.read_apply]
  show G _ = G _
  refine congrArg G (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Through window 1: the same rows of another array [50000, 128]. -/
theorem read_rows1 (t : Fin cfg0.N) (G : S50000x128.Idx → EReal) (x : S5000x128.Idx) (k : S50000x128.Idx)
    (hk0 : (k 0).val = 5000 * t.val + (x 0).val) (hk1 : (k 1).val = (x 1).val) :
    (((cfg0.win 1).blk t).view.read (Elt Ideal) G : Vec Ideal S5000x128 .f32) x = G k := by
  obtain ⟨-, -, e0, e1, -⟩ := idx_facts t
  rw [View.read_apply]
  show G _ = G _
  refine congrArg G (funext fun a => Fin.ext ?_)
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- Through window 2: the same rows of a column [50000, 1]. -/
theorem read_rows2 (t : Fin cfg0.N) (G : S50000x1.Idx → EReal) (x : S5000x1.Idx) (k : S50000x1.Idx)
    (hk0 : (k 0).val = 5000 * t.val + (x 0).val) (hk1 : (k 1).val = (x 1).val) :
    (((cfg0.win 2).blk t).view.read (Elt Ideal) G : Vec Ideal S5000x1 .f32) x = G k := by
  obtain ⟨-, -, -, -, e0, e1, -⟩ := idx_facts t
  rw [View.read_apply]
  show G _ = G _
  refine congrArg G (funext fun a => Fin.ext ?_)
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- Through window 3: an array [128, 128], whole. -/
theorem read_whole3 (t : Fin cfg0.N) (G : S128x128.Idx → EReal) (x : S128x128.Idx) :
    (((cfg0.win 3).blk t).view.read (Elt Ideal) G : Vec Ideal S128x128 .f32) x = G x := by
  obtain ⟨-, -, -, -, -, -, e0, e1, -⟩ := idx_facts t
  rw [View.read_apply]
  show G _ = G _
  refine congrArg G (funext fun a => Fin.ext ?_)
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- Through window 4: a row [1, 128], whole. -/
theorem read_whole4 (t : Fin cfg0.N) (G : S1x128.Idx → EReal) (x : S1x128.Idx) :
    (((cfg0.win 4).blk t).view.read (Elt Ideal) G : Vec Ideal S1x128 .f32) x = G x := by
  obtain ⟨-, -, -, -, -, -, -, -, e0, e1, -⟩ := idx_facts t
  rw [View.read_apply]
  show G _ = G _
  refine congrArg G (funext fun a => Fin.ext ?_)
  match a with
  | ⟨0, _⟩ => show win0_4.index t 0 * 1 + 1 * (x 0).val = (x 0).val; rw [e0]; omega
  | ⟨1, _⟩ => show win0_4.index t 1 * 128 + 1 * (x 1).val = (x 1).val; rw [e1]; omega

end Cert.KernelPoints

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.MeanLaw.lean ====
/-
  The law that joins the two arrangements of a graph layer with self loops and mean normalisation.

  A node n has its own feature row xn, and the rows a(e, ·) of the source nodes of the edges e that end in n (the edges
  with P e). With a weight column W (one output channel), a bias b, and k = #{e : P e}:

    * project first, then aggregate (the reference): every row is projected and biased, h = Σ_c row(c)·W(c) + b, the
      node's own h and the h of its in-neighbours are summed and divided by k + 1:
          ( (Σ_c xn(c)·W(c) + b) + Σ_{e : P e} (Σ_c a(e,c)·W(c) + b) ) / (k + 1);
    * aggregate first, then project (the kernel): the raw rows are summed, the sum is projected once, multiplied by
      the reciprocal 1 / (k + 1) and the bias is added last:
          ( Σ_c (xn(c) + Σ_{e : P e} a(e,c))·W(c) ) · (1 / (k + 1)) + b.

  They agree because the projection is linear and the k + 1 copies of the bias, divided by k + 1, are one bias:
  distributivity and cancellation, which hold over the reals and fail at the infinities (∞ − ∞, ∞ · 0). So the law is
  proved over ℝ and carried to the extended reals for families whose entries are all real numbers; k + 1 ≥ 1 is never
  zero, so the two quotients are products with the real 1 / (k + 1).
-/
import Mathlib.Tactic.FieldSimp
import Mathlib.Tactic.Ring
import Mathlib.Tactic.Positivity
import Idealize.ShloMosaic.PureOps.Ideal
import proofs.«112478_j71159018160288_2_alg».proof.Proof.LibSegmentRows

noncomputable section

open scoped BigOperators

namespace Cert.MeanLaw

open Idealize.ShloMosaic Idealize.ShloMosaic.SegmentRows

variable {ι κ : Type} [Fintype ι] [Fintype κ]

/-- Aggregate the raw rows, project once, scale by the reciprocal of the degree plus one, add the bias. -/
def aggregateThenProject (P : ι → Prop) [DecidablePred P] (xn : κ → EReal) (a : ι → κ → EReal) (W : κ → EReal)
    (b : EReal) : EReal :=
  (∑ k, (xn k + ∑ e, if P e then a e k else 0) * W k) * Ideal.div 1 ((∑ e, if P e then (1 : EReal) else 0) + 1) + b

/-- Project and bias every row, add the node's own to its in-neighbours', divide by d. -/
def projectThenAggregate (P : ι → Prop) [DecidablePred P] (xn : κ → EReal) (a : ι → κ → EReal) (W : κ → EReal)
    (b d : EReal) : EReal :=
  Ideal.div ((∑ k, xn k * W k + b) + ∑ e, if P e then (∑ k, a e k * W k + b) else 0) d

/-- Over the reals, with c the number of edges counted as a sum of ones. -/
theorem commute_real (P : ι → Prop) [DecidablePred P] (xn : κ → ℝ) (a : ι → κ → ℝ) (W : κ → ℝ) (b : ℝ) :
    ((∑ k, xn k * W k + b) + ∑ e, if P e then (∑ k, a e k * W k + b) else 0)
        * (1 / ((∑ e : ι, if P e then (1 : ℝ) else 0) + 1))
      = (∑ k, (xn k + ∑ e, if P e then a e k else 0) * W k) * (1 / ((∑ e : ι, if P e then (1 : ℝ) else 0) + 1)) + b := by
  have hc0 : 0 ≤ ∑ e : ι, if P e then (1 : ℝ) else 0 :=
    Finset.sum_nonneg fun e _ => by split <;> norm_num
  generalize hc : (∑ e : ι, if P e then (1 : ℝ) else 0) = c at hc0 ⊢
  have hne : c + 1 ≠ 0 := by positivity
  have h1 : (∑ e, if P e then (∑ k, a e k * W k + b) else 0)
      = (∑ e, if P e then ∑ k, a e k * W k else 0) + c * b := by
    rw [← hc, Finset.sum_mul, ← Finset.sum_add_distrib]
    refine Finset.sum_congr rfl fun e _ => ?_
    split <;> simp
  have h2 : (∑ k, (xn k + ∑ e, if P e then a e k else 0) * W k)
      = (∑ k, xn k * W k) + ∑ e, if P e then ∑ k, a e k * W k else 0 := by
    have hs := segment_commute_real P a (fun _ => 1) W
    simp only [mul_one] at hs
    rw [← hs, ← Finset.sum_add_distrib]
    exact Finset.sum_congr rfl fun k _ => by ring
  rw [h1, h2]
  field_simp
  ring

/-- A sum of ones over the edges with P, in the extended reals, is their number. -/
theorem sum_ones (P : ι → Prop) [DecidablePred P] :
    (∑ e : ι, if P e then (1 : EReal) else 0) = (((∑ e : ι, if P e then (1 : ℝ) else 0) : ℝ) : EReal) := by
  rw [coe_finset_sum]
  refine Finset.sum_congr rfl fun e _ => ?_
  split <;> simp

/-- THE LAW over the extended reals, for real entries: the reference's arrangement divided by the real k + 1 is the
    kernel's. -/
theorem commute_ereal (P : ι → Prop) [DecidablePred P] (xn : κ → EReal) (a : ι → κ → EReal) (W : κ → EReal) (b : EReal)
    (hx : ∀ k, ∃ r : ℝ, xn k = (r : EReal)) (ha : ∀ e k, ∃ r : ℝ, a e k = (r : EReal))
    (hW : ∀ k, ∃ r : ℝ, W k = (r : EReal)) (hb : ∃ r : ℝ, b = (r : EReal)) :
    projectThenAggregate P xn a W b ((((∑ e : ι, if P e then (1 : ℝ) else 0) + 1 : ℝ)) : EReal)
      = aggregateThenProject P xn a W b := by
  choose X hX using hx
  choose A hA using ha
  choose W' hW' using hW
  obtain ⟨b', rfl⟩ := hb
  obtain rfl : xn = fun k => ((X k : ℝ) : EReal) := funext hX
  obtain rfl : a = fun e k => ((A e k : ℝ) : EReal) := funext fun e => funext fun k => hA e k
  obtain rfl : W = fun k => ((W' k : ℝ) : EReal) := funext hW'
  have hc0 : 0 ≤ ∑ e : ι, if P e then (1 : ℝ) else 0 :=
    Finset.sum_nonneg fun e _ => by split <;> norm_num
  have hne : (∑ e : ι, if P e then (1 : ℝ) else 0) + 1 ≠ 0 := by positivity
  unfold projectThenAggregate aggregateThenProject
  rw [sum_ones, ← EReal.coe_one, ← EReal.coe_add, Ideal.div_coe hne, Ideal.div_coe hne]
  simp only [← EReal.coe_mul, ← EReal.coe_add, ite_coe, ← coe_finset_sum]
  exact congrArg _ (by rw [one_mul]; exact commute_real P X A W' b')

end Cert.MeanLaw

end
-- ==== Proof.LayerSpec.lean ====
/-
  The layer as one function of the argument arrays.

  Arguments: node features x : [50000, 128]; an edge list ei : [2, 800000] of 32-bit words, row 0 the node an edge ends
  in, row 1 the node it starts from; weights W : [128, 128] stored output-major (W(o, c) multiplies input channel c into
  output channel o); a bias b : [128].

  Reading of the words. An edge e is counted for node n when its end word, read as a signed integer, IS n (an end
  word that is negative or ≥ 50000 is no node: the edge is dropped). Its start word is first normalised as an array
  index — a negative word has 50000 added — and then clamped into [0, 49999]: that is the row the edge reads.

  The result at (n, o), in the arrangement "aggregate the raw rows first": the node's own row plus the rows its
  in-edges read, contracted with row o of W, times 1 / (in-degree + 1), plus b(o).
-/
import Idealize.ShloMosaic.PureOps.Ideal
import Idealize.ShloMosaic.Lib.ValueIdx
import proofs.«112478_j71159018160288_2_alg».proof.Proof.MeanLaw

noncomputable section

open scoped BigOperators

namespace Cert.MeanLayer

open Idealize.ShloMosaic Idealize.ShloMosaic.ValueIdx

/-- The word naming the node edge e ends in. -/
def tgtWord (ei : IVec ⟨2, ![2, 800000]⟩ 32) (e : Fin 800000) : BitVec 32 := ei (ix2 0 e)

/-- The word naming the node edge e starts from, normalised as an array index: a negative word counts from the end. -/
def srcWord (ei : IVec ⟨2, ![2, 800000]⟩ 32) (e : Fin 800000) : BitVec 32 :=
  Scalar.select (IntOp.cmpi .slt (ei (ix2 1 e)) 0#32) (IntOp.addi (ei (ix2 1 e)) 50000#32) (ei (ix2 1 e))

/-- The row edge e reads: its normalised start word as a signed integer, clamped into [0, 49999]. -/
def srcRow (ei : IVec ⟨2, ![2, 800000]⟩ 32) (e : Fin 800000) : Fin 50000 :=
  ⟨min (srcWord ei e).toInt.toNat (50000 - 1), by omega⟩

/-- Edge e ends in node n. -/
abbrev endsAt (ei : IVec ⟨2, ![2, 800000]⟩ 32) (n : Fin 50000) (e : Fin 800000) : Prop :=
  (tgtWord ei e).toInt = (n.val : Int)

/-- THE LAYER: at (n, o), ( Σ_c (x(n,c) + Σ_{e ends at n} x(row e, c)) · W(o,c) ) · (1 / (#{e ends at n} + 1)) + b(o). -/
def layerOut (x : (⟨2, ![50000, 128]⟩ : Shape).Idx → EReal) (ei : IVec ⟨2, ![2, 800000]⟩ 32)
    (W : (⟨2, ![128, 128]⟩ : Shape).Idx → EReal) (b : (⟨1, ![128]⟩ : Shape).Idx → EReal) :
    (⟨2, ![50000, 128]⟩ : Shape).Idx → EReal :=
  fun i => MeanLaw.aggregateThenProject (endsAt ei (i 0)) (fun k : Fin 128 => x (ix2 (i 0) k))
    (fun e k => x (ix2 (srcRow ei e) k)) (fun k => W (ix2 (i 1) k)) (b (ix1 (i 1)))

theorem layerOut_apply (x : (⟨2, ![50000, 128]⟩ : Shape).Idx → EReal) (ei : IVec ⟨2, ![2, 800000]⟩ 32)
    (W : (⟨2, ![128, 128]⟩ : Shape).Idx → EReal) (b : (⟨1, ![128]⟩ : Shape).Idx → EReal) (n : Fin 50000) (o : Fin 128) :
    layerOut x ei W b (ix2 n o) = MeanLaw.aggregateThenProject (endsAt ei n) (fun k : Fin 128 => x (ix2 n k))
      (fun e k => x (ix2 (srcRow ei e) k)) (fun k => W (ix2 o k)) (b (ix1 o)) := rfl

end Cert.MeanLayer

end
-- ==== Proof.RefColumns.lean ====
/-
  The reference's two index columns, read at an edge.

  The edge list ei : [2, 800000] is cut into its two rows, each flattened to a vector [800000] and laid out as a column
  [800000, 1]: the column of end words is the scatter's index array (used twice: for the row aggregate and for the
  in-degree count), the column of start words, each negative word first moved up by 50000, the gather's. At (e, 0) they
  read ei(0, e), and ei(1, e) normalised.
-/
import proofs.«112478_j71159018160288_2_alg».proof.Proof.Gen.ReferenceIdeal.Read
import proofs.«112478_j71159018160288_2_alg».proof.Proof.LayerSpec

noncomputable section

open scoped BigOperators

namespace Cert.RefRead

open Cert.ReferenceIdeal Cert.ReferenceIdeal.Gen Cert.ReferenceIdeal.Read Idealize.ShloMosaic
  Idealize.ShloMosaic.ValueIdx Cert.MeanLayer

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

/-- The column of end words, at edge e (the scatter indices of the row aggregate). -/
theorem tgt_read (e : Fin 800000) : val_main_v17 (F := Ideal) x1 (ix2 e 0) = tgtWord x1 e := by
  rw [val_main_v17_apply, val_main_v6_apply, val_main_v5_apply]
  unfold tgtWord
  refine congrArg x1 (funext fun a => Fin.ext ?_)
  match a with
  | ⟨0, _⟩ => rfl
  | ⟨1, _⟩ => exact Nat.mod_eq_of_lt e.isLt

/-- The same column, as the in-degree count's scatter indices. -/
theorem tgt_read' (e : Fin 800000) : val_main_v21 (F := Ideal) x1 (ix2 e 0) = tgtWord x1 e := by
  rw [val_main_v21_apply, val_main_v6_apply, val_main_v5_apply]
  unfold tgtWord
  refine congrArg x1 (funext fun a => Fin.ext ?_)
  match a with
  | ⟨0, _⟩ => rfl
  | ⟨1, _⟩ => exact Nat.mod_eq_of_lt e.isLt

/-- The raw start word of edge e. -/
theorem srcRaw_read (e : Fin 800000) : val_main_v8 (F := Ideal) x1 (idx_main_v14 (ix2 e 0)) = x1 (ix2 1 e) := by
  rw [val_main_v8_apply, val_main_v7_apply]
  refine congrArg x1 (funext fun a => Fin.ext ?_)
  match a with
  | ⟨0, _⟩ => rfl
  | ⟨1, _⟩ => exact Nat.mod_eq_of_lt e.isLt

/-- The column of normalised start words, at edge e. -/
theorem src_read (e : Fin 800000) : val_main_v14 (F := Ideal) x1 (ix2 e 0) = srcWord x1 e := by
  rw [val_main_v14_apply, val_main_v13_apply, val_main_v10_apply, val_main_v12_apply, val_main_v9_apply,
    val_main_v11_apply, val_main_c_apply, val_main_c_0_apply, srcRaw_read]
  unfold srcWord
  rfl

end Cert.RefRead

end
-- ==== Proof.LibRowScatterAdd.lean ====
/-
  The host's accumulating float scatter on rows, as a program prints it, read at an entry.

  A program's segment sum of rows prints as Host.scatterAdd at the scatter's dimension numbers (operand [N, C], scatter
  indices [E, 1], updates [E, C]; update_window_dims [1], inserted_window_dims [0], scatter_dims_to_operand_dims [0],
  index_vector_dim 1). At the ideal instance that is the exact sum: the operand's entry (n, c) plus the update entries
  (e, c) over the positions e whose index, read signed, is n. Stated here with the printed operation itself on the
  left, for sizes N, E, C left general: a statement about a particular program's array then applies it without
  anything being unfolded.
-/
import Idealize.ShloMosaic.Lib.ValueIdx
import Idealize.ShloMosaic.PureOps.Ideal.Laws
import proofs.«112478_j71159018160288_2_alg».proof.Proof.LibSegmentRows

noncomputable section

open scoped BigOperators

namespace Cert.RowScatterAdd

open Idealize.ShloMosaic Idealize.ShloMosaic.ValueIdx Idealize.ShloMosaic.SegmentRows

/-- THE PRINTED ROW SCATTER-ADD AT (n, c), at the ideal instance. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatterDims N E C wf) x idx upd (ix2 n c)
      = x (ix2 n c) + ∑ e : Fin E, if (idx (ix2 e 0)).toInt = (n.val : Int) then upd (ix2 e c) else 0 :=
  hostScatterAdd_rows_apply wf idx c x upd n

end Cert.RowScatterAdd

end
-- ==== Proof.LibChannelForms.lean ====
/-
  Channel-major arrays read at an entry: a column gather, a vector scatter-add, and a stack of columns.

  A graph layer may keep its node table channel-major, x : [C, N] (one row per channel), instead of row-major [N, C].
  Then "take, for every edge e, the entries of node src(e)" is a gather of COLUMNS (stablehlo.gather with offset_dims
  [0], collapsed_slice_dims [1], start_index_map [1], index_vector_dim 1 and slice sizes [C, 1], the start indices an
  [E, 1] integer array, the result [C, E]); the aggregation over the edges is done one channel at a time, each a
  scatter-add of an [E] vector into an [N] vector (stablehlo.scatter with an add body, update_window_dims [],
  inserted_window_dims [0], scatter_dims_to_operand_dims [0], index_vector_dim 1, the scatter indices an [E, 1]
  integer array); and the k per-channel results, each laid out as a column [N, 1], are put side by side into [N, k]
  (stablehlo.concatenate along axis 1).

  Read at the extended reals:
    * the gathered array at (c, e) is x at (c, row e), where row e is the start index of edge e read as a signed
      integer and clamped into [0, N − 1] — the same row the row-major gather reads;
    * the scatter-add at n is the operand's entry plus the sum over the edges e whose scatter index, read as a signed
      integer, IS n, of the update's entry e; an edge whose index is negative or ≥ N is equal to no n and contributes
      nowhere — the same condition as the row-major scatter-add's;
    * the stack of k columns at (n, o) is column o at (n, 0).
-/
import Idealize.ShloMosaic.Lib.ValueIdx
import Idealize.ShloMosaic.Lib.Pipeline.Value
import Idealize.ShloMosaic.PureOps.Ideal.Laws
import proofs.«112478_j71159018160288_2_alg».proof.Proof.LibSegmentRows

noncomputable section

open scoped BigOperators

namespace Cert.ChannelForms

open Idealize.ShloMosaic Idealize.ShloMosaic.ValueIdx

/-- Of the two axes of a matrix, the one that is not axis 1 is axis 0. -/
theorem kept_one {C N : Nat} : (⟨2, ![C, N]⟩ : Shape).kept [1] = [0] := rfl
/-- The same with an empty list of further axes appended. -/
theorem kept_one_nil {C N : Nat} : (⟨2, ![C, N]⟩ : Shape).kept ([1] ++ []) = [0] := rfl
/-- A vector's one axis removed, none is left. -/
theorem kept_vec {N : Nat} : (⟨1, ![N]⟩ : Shape).kept [0] = [] := rfl

/-! ## The column gather read at an entry -/

section Gather
variable {α : Type}

/-- The dimension numbers of "take columns": operand [C, N], start indices [E, 1], result [C, E]. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

variable {C N E w : Nat} (wf : GatherDims.WF ⟨2, ![C, N]⟩ ⟨2, ![E, 1]⟩ ⟨2, ![C, E]⟩ [0] [1] [] [1] [] 1 ![C, 1])
  (idx : IVec ⟨2, ![E, 1]⟩ w) (c : Fin C) (e : Fin E)

/-- On the channel axis the operand index is the result's channel … -/
theorem operandIdx_chan :
    ((colGatherDims C N E wf).operandIdx (ix2 c e) idx 0).val = c.val := by
  show (colGatherDims C N E wf).start (ix2 c e) idx 0 + (colGatherDims C N E wf).batchCoord (ix2 c e) 0
      + (colGatherDims C N E wf).offCoord (ix2 c e) 0 = _
  rw [GatherDims.batchCoord_eq_zero _ _ _ List.not_mem_nil]
  unfold GatherDims.start
  rw [dif_neg (by decide : ¬ (0 : Fin 2) ∈ ([1] : List (Fin 2)))]
  unfold GatherDims.offCoord
  rw [dif_pos (by rw [GatherDims.sKept, kept_one_nil]; exact List.mem_singleton.mpr rfl)]
  simp only [Nat.zero_add]
  rfl

/-- … and on the node axis it is the clamped start index. -/
theorem operandIdx_node :
    ((colGatherDims C N E wf).operandIdx (ix2 c e) idx 1).val = min (idx (ix2 e 0)).toInt.toNat (N - 1) := by
  show (colGatherDims C N E wf).start (ix2 c e) idx 1 + (colGatherDims C N E wf).batchCoord (ix2 c e) 1
      + (colGatherDims C N E wf).offCoord (ix2 c e) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colGatherDims C N E wf).startIndexMap from List.mem_singleton.mpr rfl)]
  have hsi : (colGatherDims C N E wf).siIdx (ix2 c e) ⟨List.idxOf (1 : Fin 2) (colGatherDims C N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE COLUMN GATHER AT (c, e): the operand at (c, row e), the row the row-major gather reads. -/
theorem gather_cols_apply (hN : 0 < N) (x : (⟨2, ![C, N]⟩ : Shape).Idx → α) :
    Host.gather (colGatherDims C N E wf) x idx (ix2 c e) = x (ix2 c (SegmentRows.rowOf hN idx e)) := by
  unfold Host.gather
  congr 1
  funext a
  refine Fin.ext ?_
  match a with
  | ⟨0, _⟩ => exact operandIdx_chan wf idx c e
  | ⟨1, _⟩ => exact operandIdx_node wf idx c e

end Gather

/-! ## The vector scatter-add read at an entry -/

section Scatter

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "add entries into a vector": operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at edge e's scatter index read signed … -/
theorem start_vec : (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0 (the operand's one axis is an inserted axis). -/
theorem window_vec : (vecScatterDims N E wf).window (ix1 e) 0 = 0 := by
  unfold ScatterDims.window
  rw [dif_neg (by rw [ScatterDims.sKept, kept_vec]; exact List.not_mem_nil)]

/-- WHERE UPDATE e LANDS: at n exactly when edge e's scatter index, read signed, is n. An index that is negative or at
    least N is no n: that update is dropped. -/
theorem resultIdx?_vec_eq_some_iff (n : Fin N) :
    (vecScatterDims N E wf).resultIdx? (ix1 e) idx = some (ix1 n) ↔ (idx (ix2 e 0)).toInt = (n.val : Int) := by
  unfold ScatterDims.resultIdx?
  constructor
  · intro h
    split at h
    · rename_i hr
      have hf := Option.some.inj h
      have h0 := congrArg (fun f => (f 0).val) hf
      simp only [start_vec, window_vec] at h0
      have hr0 := hr 0
      rw [start_vec, window_vec] at hr0
      have : ((ix1 n : (⟨1, ![N]⟩ : Shape).Idx) 0).val = n.val := rfl
      omega
    · exact absurd h (by simp)
  · intro ht
    have hr : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [start_vec, window_vec, ht]
        have := n.isLt
        omega
    rw [dif_pos hr]
    congr 1
    funext a
    refine Fin.ext ?_
    match a with
    | ⟨0, _⟩ =>
      show ((vecScatterDims N E wf).start (ix1 e) idx 0 + (vecScatterDims N E wf).window (ix1 e) 0).toNat = n.val
      rw [start_vec, window_vec, ht]; simp

/-- THE VECTOR SCATTER-ADD AT n: the operand's entry plus the update's entries e over the edges e whose scatter index
    is n. -/
theorem hostScatterAdd_vec_apply (x : (⟨1, ![N]⟩ : Shape).Idx → EReal) (upd : (⟨1, ![E]⟩ : Shape).Idx → EReal)
    (n : Fin N) :
    Ideal.hostScatterAdd (vecScatterDims N E wf) x idx upd (ix1 n)
      = x (ix1 n) + ∑ e : Fin E, if (idx (ix2 e 0)).toInt = (n.val : Int) then upd (ix1 e) else 0 := by
  unfold Ideal.hostScatterAdd
  congr 1
  rw [Finset.sum_filter, sum_idx1]
  refine Finset.sum_congr rfl fun e _ => ?_
  simp only [resultIdx?_vec_eq_some_iff]

/-- The same for the host's accumulating scatter at the ideal instance, which is that sum by definition. -/
theorem scatterAdd_vec_apply {φ : FTy} (x : FVec Ideal ⟨1, ![N]⟩ φ) (upd : FVec Ideal ⟨1, ![E]⟩ φ) (n : Fin N) :
    Host.scatterAdd (F := Ideal) (vecScatterDims N E wf) x idx upd (ix1 n)
      = x (ix1 n) + ∑ e : Fin E, if (idx (ix2 e 0)).toInt = (n.val : Int) then upd (ix1 e) else 0 :=
  hostScatterAdd_vec_apply wf idx x upd n

end Scatter

/-! ## A stack of columns read at an entry -/

section Columns
variable {α : Type}

/-- A vector [N] broadcast along a new unit axis to the column [N, 1] reads, at (n, u), the vector at n. -/
theorem column_apply {N : Nat} (v : (⟨1, ![N]⟩ : Shape).Idx → α) (dims : Fin 1 → Fin 2) (hd : dims 0 = 0)
    (h : (⟨1, ![N]⟩ : Shape).BroadcastsInDim ⟨2, ![N, 1]⟩ dims) (n : Fin N) (u : Fin 1) :
    broadcastInDim ⟨2, ![N, 1]⟩ dims h v (ix2 n u) = v (ix1 n) := by
  refine broadcastInDim_apply dims h v (ix2 n u) (ix1 n) fun ax => ?_
  match ax with
  | ⟨0, _⟩ =>
    show n.val = if N = 1 then 0 else ((ix2 n u : (⟨2, ![N, 1]⟩ : Shape).Idx) (dims 0)).val
    rw [hd]
    split
    · have := n.isLt; omega
    · rfl

/-- THE STACK OF k COLUMNS AT (n, o): column o at (n, 0). The columns are a family f, listed in order. -/
theorem concat_cols_apply {N k : Nat} (f : Fin k → ((⟨2, ![N, 1]⟩ : Shape).Idx → α))
    (h : Shape.Concatenates
      ((List.ofFn fun o : Fin k => (⟨⟨2, ![N, 1]⟩, f o⟩ : (s : Shape) × (s.Idx → α))).map (·.1)) ⟨2, ![N, k]⟩ 1)
    (n : Fin N) (o : Fin k) :
    concatenate ⟨2, ![N, k]⟩ 1 (List.ofFn fun o : Fin k => (⟨⟨2, ![N, 1]⟩, f o⟩ : (s : Shape) × (s.Idx → α))) h (ix2 n o)
      = f o (ix2 n 0) :=
  concatenate_ofFn_unit_apply (t := ⟨2, ![N, k]⟩) (s₁ := ⟨2, ![N, 1]⟩) 1 f h rfl rfl (ix2 n o) o rfl (ix2 n 0)
    (fun b hb => by
      match b with
      | ⟨0, _⟩ => rfl
      | ⟨1, _⟩ => exact absurd rfl hb)

/-- Four columns written out. -/
theorem concat_cols4_apply {N : Nat} (u0 u1 u2 u3 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩] :
      List ((s : Shape) × (s.Idx → α))).map (·.1)) ⟨2, ![N, 4]⟩ 1)
    (n : Fin N) (o : Fin 4) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 n o)
      = ![u0, u1, u2, u3] o (ix2 n 0) :=
  concat_cols_apply ![u0, u1, u2, u3] h n o

/-- Eight columns written out. -/
theorem concat_cols8_apply {N : Nat} (u0 u1 u2 u3 u4 u5 u6 u7 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩] :
      List ((s : Shape) × (s.Idx → α))).map (·.1)) ⟨2, ![N, 8]⟩ 1)
    (n : Fin N) (o : Fin 8) :
    concatenate ⟨2, ![N, 8]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩] h (ix2 n o)
      = ![u0, u1, u2, u3, u4, u5, u6, u7] o (ix2 n 0) :=
  concat_cols_apply ![u0, u1, u2, u3, u4, u5, u6, u7] h n o

/-- Sixteen columns written out. -/
theorem concat_cols16_apply {N : Nat} (u0 u1 u2 u3 u4 u5 u6 u7 u8 u9 u10 u11 u12 u13 u14 u15 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩, ⟨⟨2, ![N, 1]⟩, u9⟩, ⟨⟨2, ![N, 1]⟩, u10⟩, ⟨⟨2, ![N, 1]⟩, u11⟩, ⟨⟨2, ![N, 1]⟩, u12⟩, ⟨⟨2, ![N, 1]⟩, u13⟩, ⟨⟨2, ![N, 1]⟩, u14⟩, ⟨⟨2, ![N, 1]⟩, u15⟩] :
      List ((s : Shape) × (s.Idx → α))).map (·.1)) ⟨2, ![N, 16]⟩ 1)
    (n : Fin N) (o : Fin 16) :
    concatenate ⟨2, ![N, 16]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩, ⟨⟨2, ![N, 1]⟩, u9⟩, ⟨⟨2, ![N, 1]⟩, u10⟩, ⟨⟨2, ![N, 1]⟩, u11⟩, ⟨⟨2, ![N, 1]⟩, u12⟩, ⟨⟨2, ![N, 1]⟩, u13⟩, ⟨⟨2, ![N, 1]⟩, u14⟩, ⟨⟨2, ![N, 1]⟩, u15⟩] h (ix2 n o)
      = ![u0, u1, u2, u3, u4, u5, u6, u7, u8, u9, u10, u11, u12, u13, u14, u15] o (ix2 n 0) :=
  concat_cols_apply ![u0, u1, u2, u3, u4, u5, u6, u7, u8, u9, u10, u11, u12, u13, u14, u15] h n o

end Columns

end Cert.ChannelForms

end
-- ==== Proof.Words.lean ====
/-
  The float words the programs spell, as the extended reals they denote: 1.0 is the real number 1.
-/
import Idealize.ShloMosaic.PureOps.Ideal

noncomputable section

namespace Cert.Words

open Idealize.ShloMosaic

/-- The f32 word of 1.0 denotes 1. -/
theorem ofBits_one : Ideal.ofBits .f32 0x3F800000#32 = 1 := by
  simp [Ideal.ofBits, Ideal.ieee, -EReal.coe_mul]; norm_num

end Cert.Words

end
-- ==== Proof.KernelHost.lean ====
/-
  What the kernel's region finds in its windows' arrays: the host operations before the launch, read entry by entry.

  Before the one kernel launch the host code
    * cuts the edge list into its two rows and lays each out as a column [800000, 1] — the column of end words, and the
      column of start words with every negative word first moved up by 50000: the same operations, in the same order,
      as the reference's;
    * gathers the rows of x the edges read and adds them, from a zero array, into the rows the edges end in: the
      aggregate of RAW rows, at (n, c) the sum over the edges e ending in n of x(row e, c) (the rounding of x to bf16
      before the gather and back after it is the identity on extended reals);
    * counts the in-edges of every node by adding the float 1 for every edge into a zero vector, adds 1, takes the
      reciprocal 1 / (count + 1), and lays it out as a column [50000, 1];
    * transposes W, so that the array's entry (c, o) is W(o, c); and lays b out as a row [1, 128].
-/
import proofs.«112478_j71159018160288_2_alg».proof.Proof.Gen.KernelIdeal.Frame
import Idealize.ShloMosaic.Lib.StableHlo.Run
import Idealize.ShloMosaic.Lib.Pipeline.Value
import proofs.«112478_j71159018160288_2_alg».proof.Proof.RefColumns
import proofs.«112478_j71159018160288_2_alg».proof.Proof.LibRowScatterAdd
import proofs.«112478_j71159018160288_2_alg».proof.Proof.LibChannelForms
import proofs.«112478_j71159018160288_2_alg».proof.Proof.Words

noncomputable section

open scoped BigOperators

namespace Cert.KernelHost

open Cert.KernelIdeal Cert.KernelIdeal.Gen Idealize.ShloMosaic Idealize.ShloMosaic.TcCoe Idealize.SL.Sem
  Idealize.ShloMosaic.StableHlo Idealize.ShloMosaic.ValueIdx Cert.MeanLayer

variable (a0 : (⟨S50000x128, .f32⟩ : BufTy).Contents (Elt Ideal)) (a1 : (⟨S2x800000, .i32⟩ : BufTy).Contents (Elt Ideal))
  (a2 : (⟨S128x128, .f32⟩ : BufTy).Contents (Elt Ideal)) (a3 : (⟨S128, .f32⟩ : BufTy).Contents (Elt Ideal))

/-! ## The host stages as functions of the argument arrays -/

/-- The column of end words. -/
def endCol : (⟨S800000x1, .i32⟩ : BufTy).Contents (Elt Ideal) :=
  broadcastInDim S800000x1 ![0] bcast_S800000_S800000x1_0
    (shapeCast _ (extractStridedSlice S1x800000 ![0, 0] a1 slices_S2x800000_S1x800000_0_0) shapeCasts_S1x800000_S800000)

/-- The vector of raw start words. -/
def startVec : (⟨S800000, .i32⟩ : BufTy).Contents (Elt Ideal) :=
  shapeCast _ (extractStridedSlice S1x800000 ![1, 0] a1 slices_S2x800000_S1x800000_1_0) shapeCasts_S1x800000_S800000

/-- The column of start words, a negative word moved up by 50000. -/
def startCol : (⟨S800000x1, .i32⟩ : BufTy).Contents (Elt Ideal) :=
  broadcastInDim S800000x1 ![0] bcast_S800000_S800000x1_0
    (select (cmpi .slt (startVec a1) (broadcastInDim S800000 ![] bcast_S_S800000 (constantI S_ 32 0#32)))
      (addi (startVec a1) (broadcastInDim S800000 ![] bcast_S_S800000 (constantI S_ 32 50000#32))) (startVec a1))

/-- The aggregate of raw rows (window 1's array). -/
def aggRows : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (endCol a1)
    (extf .f32 (Host.gather gather_S50000x128_S800000x1_S800000x128_1_0_n_n_0_1_1128
      (truncf .bf16 a0 bitsLt_bf16_f32) (startCol a1)) bitsLt_bf16_f32)

/-- The in-degree of every node, counted in floats. -/
def degVec : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (endCol a1)
    (broadcastInDim S800000 ![] bcast_S_S800000 (constant (F := Ideal) S_ .f32 0x3F800000#32))

/-- The column of reciprocals 1 / (in-degree + 1) (window 2's array). -/
def invCol : (⟨S50000x1, .f32⟩ : BufTy).Contents (Elt Ideal) :=
  shapeCast _ (Host.divf (broadcastInDim S50000 ![] bcast_S_S50000 (constant (F := Ideal) S_ .f32 0x3F800000#32))
    (addf (degVec a1) (broadcastInDim S50000 ![] bcast_S_S50000 (constant (F := Ideal) S_ .f32 0x3F800000#32))))
    shapeCasts_S50000_S50000x1

/-- The transposed weights (window 3's array). -/
def weightT : (⟨S128x128, .f32⟩ : BufTy).Contents (Elt Ideal) :=
  transpose S128x128 [1, 0] a2 transposes_S128x128_S128x128_1_0

/-- The bias as a row (window 4's array). -/
def biasRow : (⟨S1x128, .f32⟩ : BufTy).Contents (Elt Ideal) :=
  shapeCast _ a3 shapeCasts_S128_S1x128

/-! ## The region's entry contents are these stages -/

section Entry
variable (m : (ℓ : Loc nD τ sig) → Buf (Elt Ideal) ℓ)

set_option maxHeartbeats 1000000 in
theorem V_aggRows (c : Dev nD) : (V m c main_v15 : S50000x128.Idx → EReal)
    = aggRows (m ((c : Thread nD τ).loc main_arg0)) (m ((c : Thread nD τ).loc main_arg1)) := by
  dsimp only [V, hostOps0]; after_results_simp <;> rfl

theorem V_invCol (c : Dev nD) : (V m c main_v24 : S50000x1.Idx → EReal)
    = invCol (m ((c : Thread nD τ).loc main_arg1)) := by
  dsimp only [V, hostOps0]; after_results; rfl

theorem V_weightT (c : Dev nD) : (V m c main_v25 : S128x128.Idx → EReal)
    = weightT (m ((c : Thread nD τ).loc main_arg2)) := by
  dsimp only [V, hostOps0]; after_results; rfl

theorem V_biasRow (c : Dev nD) : (V m c main_v26 : S1x128.Idx → EReal)
    = biasRow (m ((c : Thread nD τ).loc main_arg3)) := by
  dsimp only [V, hostOps0]; after_results; rfl

end Entry

/-! ## The stages read at an entry -/

/-- The host's quotient of two arrays at an entry is the quotient of the entries. -/
theorem hostDivf_apply {s : Shape} {φ : FTy} (a b : FVec Ideal s φ) (i : s.Idx) :
    Host.divf a b i = Ideal.div (a i) (b i) := rfl

/-- A constant copied over a whole array reads its word's value everywhere. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h _ i ix0 (fun a => a.elim0)

/-- The two index columns are, operation for operation, the reference's. -/
theorem endCol_read (e : Fin 800000) : endCol a1 (ix2 e 0) = tgtWord a1 e :=
  Cert.RefRead.tgt_read a1 e

theorem startCol_read (e : Fin 800000) : startCol a1 (ix2 e 0) = srcWord a1 e :=
  Cert.RefRead.src_read a1 e

theorem gatherRec_eq : gather_S50000x128_S800000x1_S800000x128_1_0_n_n_0_1_1128
    = SegmentRows.rowGatherDims 50000 800000 128 Facts₀.gather_S50000x128_S800000x1_S800000x128_1_0_n_n_0_1_1128_wf := rfl

theorem rowScatterRec_eq : scatter_S50000x128_S800000x1_S800000x128_1_0_0_1
    = SegmentRows.rowScatterDims 50000 800000 128 Facts₀.scatter_S50000x128_S800000x1_S800000x128_1_0_0_1_wf := rfl

theorem vecScatterRec_eq : scatter_S50000_S800000x1_S800000_n_0_0_1
    = ChannelForms.vecScatterDims 50000 800000 Facts₀.scatter_S50000_S800000x1_S800000_n_0_0_1_wf := rfl

/-- The row an edge's gather reads is the layer's. -/
theorem row_read (e : Fin 800000) :
    SegmentRows.rowOf (N := 50000) (by norm_num) (startCol a1) e = srcRow a1 e := by
  unfold SegmentRows.rowOf srcRow
  exact Fin.ext (by simp only [startCol_read])

/-- The gathered raw rows at (e, k): x at the row the edge reads. -/
theorem gathered_read (e : Fin 800000) (k : Fin 128) :
    (extf .f32 (Host.gather gather_S50000x128_S800000x1_S800000x128_1_0_n_n_0_1_1128
      (truncf .bf16 a0 bitsLt_bf16_f32) (startCol a1)) bitsLt_bf16_f32 : FVec Ideal S800000x128 .f32) (ix2 e k)
      = a0 (ix2 (srcRow a1 e) k) := by
  rw [ValueIdx.extf_apply, gatherRec_eq]
  refine (SegmentRows.gather_rows_apply (N := 50000) (E := 800000) (C := 128) _ (startCol a1) e k (by norm_num)
    (truncf .bf16 a0 bitsLt_bf16_f32 : FVec Ideal S50000x128 .bf16)).trans ?_
  rw [row_read, ValueIdx.truncf_apply]

/-- THE AGGREGATE OF RAW ROWS at (n, k). -/
theorem aggRows_apply (n : Fin 50000) (k : Fin 128) :
    aggRows a0 a1 (ix2 n k) = ∑ e : Fin 800000, if endsAt a1 n e then a0 (ix2 (srcRow a1 e) k) else 0 := by
  unfold aggRows
  rw [rowScatterRec_eq]
  refine (RowScatterAdd.scatterAdd_rows_apply _ _ (endCol a1) _ n k).trans ?_
  rw [splat_apply, Ideal.ofBits_zero_f32, zero_add]
  refine Finset.sum_congr rfl fun e _ => ?_
  rw [endCol_read, gathered_read]

/-- The float in-degree count at n: a sum of ones over the in-edges. -/
theorem degVec_apply (n : Fin 50000) :
    degVec a1 (ix1 n) = ∑ e : Fin 800000, if endsAt a1 n e then (1 : EReal) else 0 := by
  unfold degVec
  rw [vecScatterRec_eq]
  refine (ChannelForms.scatterAdd_vec_apply _ (endCol a1) _ _ n).trans ?_
  rw [splat_apply, Ideal.ofBits_zero_f32, zero_add]
  refine Finset.sum_congr rfl fun e _ => ?_
  rw [endCol_read, splat_apply, Words.ofBits_one]

/-- THE RECIPROCAL COLUMN at (n, 0): 1 / (in-degree + 1). -/
theorem invCol_apply (n : Fin 50000) :
    invCol a1 (ix2 n 0) = Ideal.div 1 ((∑ e : Fin 800000, if endsAt a1 n e then (1 : EReal) else 0) + 1) := by
  unfold invCol
  refine (shapeCast_apply _ shapeCasts_S50000_S50000x1 (ix2 n 0) (ix1 n)
    (by rewrite [Shape.rowMajor_val_one, Shape.rowMajor_val_two]; show n.val = n.val * 1 + 0; omega)).trans ?_
  rw [hostDivf_apply, ValueIdx.addf_apply, splat_apply, Words.ofBits_one, degVec_apply]

/-- The transposed weights at (k, o): W(o, k). -/
theorem weightT_apply (k o : Fin 128) : weightT a2 (ix2 k o) = a2 (ix2 o k) := by
  unfold weightT
  exact transpose_apply [1, 0] a2 transposes_S128x128_S128x128_1_0 (ix2 k o) (ix2 o k) (fun b => match b with
    | ⟨0, _⟩ => rfl
    | ⟨1, _⟩ => rfl)

/-- The bias row at (0, o): b(o). -/
theorem biasRow_apply (o : Fin 128) : biasRow a3 (ix2 0 o) = a3 (ix1 o) := by
  unfold biasRow
  exact shapeCast_apply a3 shapeCasts_S128_S1x128 (ix2 0 o) (ix1 o)
    (by rewrite [Shape.rowMajor_val_one, Shape.rowMajor_val_two]; show o.val = 0 * 128 + o.val; omega)

end Cert.KernelHost

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.KernelBlock.lean ====
/-
  What the kernel body stores, read at an entry of the block.

  At a grid point the body loads a block X of 5000 rows of x, the block A of the same rows of the aggregate of raw rows,
  the 5000 reciprocals R of those rows as a column, the whole transposed weight matrix T and the bias row B, and stores
      ((X + A) · T) · R (copied along the row) + B (copied down the rows).
  The matrix product goes through the matrix unit with both operands rounded to bf16 and a zero accumulator: on
  extended reals the roundings are the identity and the product at (q, o) is the plain sum over the 128 shared
  channels. So the stored block at (q, o) is  ( Σ_c (X(q,c) + A(q,c)) · T(c,o) ) · R(q,0) + B(0,o).
-/
import proofs.«112478_j71159018160288_2_alg».proof.Proof.Gen.KernelIdeal.Skeleton
import Idealize.ShloMosaic.Lib.Pipeline.Value
import Idealize.ShloMosaic.Lib.ValueIdx
import proofs.«112478_j71159018160288_2_alg».proof.Proof.LibPlainMatmul

noncomputable section

open scoped BigOperators

namespace Cert.KernelBlock

open Cert.KernelIdeal Cert.KernelIdeal.Gen Idealize.ShloMosaic Idealize.ShloMosaic.ValueIdx

theorem dotRec_eq : dot_S5000x128_S128x128_S5000x128_1_0_0_1_n_n
    = PointConv.plainDims 5000 128 128 Facts₀.dot_S5000x128_S128x128_S5000x128_1_0_0_1_n_n_wf := rfl

/-- The reciprocal column copied along the 128 lanes, at (q, o): the column at (q, 0). -/
theorem lanes_apply (v : Vec Ideal S5000x1 .f32) (q : Fin 5000) (o : Fin 128) :
    broadcastTo S5000x128 v broadcasts_S5000x1_S5000x128 (ix2 q o) = v (ix2 q 0) :=
  broadcastTo_apply v broadcasts_S5000x1_S5000x128 (ix2 q o) (ix2 q 0) (fun a => match a with
    | ⟨0, _⟩ => by show q.val = if (5000 : Nat) = 1 then 0 else q.val; rw [if_neg (by decide)]
    | ⟨1, _⟩ => by show 0 = if (1 : Nat) = 1 then 0 else o.val; rw [if_pos rfl])

/-- The bias row copied down the 5000 rows, at (q, o): the row at (0, o). -/
theorem rows_apply (v : Vec Ideal S1x128 .f32) (q : Fin 5000) (o : Fin 128) :
    broadcastTo S5000x128 v broadcasts_S1x128_S5000x128 (ix2 q o) = v (ix2 0 o) :=
  broadcastTo_apply v broadcasts_S1x128_S5000x128 (ix2 q o) (ix2 0 o) (fun a => match a with
    | ⟨0, _⟩ => by show 0 = if (1 : Nat) = 1 then 0 else q.val; rw [if_pos rfl]
    | ⟨1, _⟩ => by show o.val = if (128 : Nat) = 1 then 0 else o.val; rw [if_neg (by decide)])

/-- The product of the summed block with the transposed weights, at (q, o). -/
theorem product_apply (X A : Vec Ideal S5000x128 .f32) (Tw : Vec Ideal S128x128 .f32) (q : Fin 5000) (o : Fin 128) :
    matmul dot_S5000x128_S128x128_S5000x128_1_0_0_1_n_n none (truncf .bf16 (addf X A) bitsLt_bf16_f32)
        (truncf .bf16 Tw bitsLt_bf16_f32) (constant (F := Ideal) S5000x128 .f32 0x00000000#32) (ix2 q o)
      = ∑ c : Fin 128, (X (ix2 q c) + A (ix2 q c)) * Tw (ix2 c o) := by
  rw [dotRec_eq]
  exact PointConv.plainMatmul_zero_apply _ none (truncf .bf16 (addf X A) bitsLt_bf16_f32)
    (truncf .bf16 Tw bitsLt_bf16_f32) q o

/-- THE STORED BLOCK at (q, o). -/
theorem stored_apply (X A : Vec Ideal S5000x128 .f32) (Tw : Vec Ideal S128x128 .f32) (R : Vec Ideal S5000x1 .f32)
    (B : Vec Ideal S1x128 .f32) (q : Fin 5000) (o : Fin 128) :
    k0_pay1 (F := Ideal) X A Tw R B (ix2 q o)
      = (∑ c : Fin 128, (X (ix2 q c) + A (ix2 q c)) * Tw (ix2 c o)) * R (ix2 q 0) + B (ix2 0 o) := by
  unfold k0_pay1
  simp only [shapeCast_self]
  rw [ValueIdx.addf_apply, ValueIdx.mulf_apply, product_apply, lanes_apply, rows_apply]

end Cert.KernelBlock

end
-- ==== Proof.KernelPointValue.lean ====
/-
  What a grid point stores is the layer on its rows.

  If the blocks a point loads are row n of x, row n of the aggregate of raw rows, entry n of the reciprocal column, and
  the whole transposed weights and bias row, then the value it stores at (q, o) — ((X + A)·T)(q, o) · R(q, 0) + B(0, o) —
  is the layer at (n, o) in its arrangement "aggregate the raw rows first": each factor is read entry by entry.
-/
import proofs.«112478_j71159018160288_2_alg».proof.Proof.KernelHost
import proofs.«112478_j71159018160288_2_alg».proof.Proof.KernelBlock

noncomputable section

open scoped BigOperators

namespace Cert.KernelPointValue

open Cert.KernelIdeal Cert.KernelIdeal.Gen Idealize.ShloMosaic Idealize.ShloMosaic.TcCoe Idealize.SL.Sem
  Idealize.ShloMosaic.ValueIdx Cert.MeanLayer
open Idealize.ShloMosaic.Pipeline (Dat)

/-- The stored value at (q, o), for blocks that are row n of the arrays, is the layer at (n, o). -/
theorem point_value (X A : Vec Ideal S5000x128 .f32) (Tw : Vec Ideal S128x128 .f32) (R : Vec Ideal S5000x1 .f32)
    (B : Vec Ideal S1x128 .f32)
    (a0 : (⟨S50000x128, .f32⟩ : BufTy).Contents (Elt Ideal)) (a1 : (⟨S2x800000, .i32⟩ : BufTy).Contents (Elt Ideal))
    (a2 : (⟨S128x128, .f32⟩ : BufTy).Contents (Elt Ideal)) (a3 : (⟨S128, .f32⟩ : BufTy).Contents (Elt Ideal))
    (q : Fin 5000) (o : Fin 128) (n : Fin 50000)
    (hX : ∀ k : Fin 128, X (ix2 q k) = a0 (ix2 n k))
    (hA : ∀ k : Fin 128, A (ix2 q k) = KernelHost.aggRows a0 a1 (ix2 n k))
    (hR : R (ix2 q 0) = KernelHost.invCol a1 (ix2 n 0))
    (hT : ∀ k : Fin 128, Tw (ix2 k o) = KernelHost.weightT a2 (ix2 k o))
    (hB : B (ix2 0 o) = KernelHost.biasRow a3 (ix2 0 o)) :
    k0_pay1 (F := Ideal) X A Tw R B (ix2 q o) = layerOut a0 a1 a2 a3 (ix2 n o) := by
  rw [KernelBlock.stored_apply, layerOut_apply]
  unfold MeanLaw.aggregateThenProject
  rw [hR, hB, KernelHost.invCol_apply, KernelHost.biasRow_apply]
  simp only [hX, hA, hT, KernelHost.aggRows_apply, KernelHost.weightT_apply]

end Cert.KernelPointValue

end
-- ==== Proof.KernelArray.lean ====
/-
  From blocks to the array: the kernel's result array is the layer.

  What point t stores at (q, o) of its block is the layer at (5000·t + q, o): its input blocks are rows 5000·t + q of
  the arrays the region finds. The ten blocks tile the 50000 rows (row r lies in the block of point r / 5000), so the
  array after the run is the layer of the argument arrays.
-/
import proofs.«112478_j71159018160288_2_alg».proof.Proof.KernelPoints
import proofs.«112478_j71159018160288_2_alg».proof.Proof.KernelPointValue

noncomputable section

open scoped BigOperators

namespace Cert.KernelArray

open Cert.KernelIdeal Cert.KernelIdeal.Gen Idealize.ShloMosaic Idealize.ShloMosaic.TcCoe Idealize.SL.Sem
  Idealize.ShloMosaic.ValueIdx Cert.MeanLayer
open Idealize.ShloMosaic.Pipeline (Dat)

variable (m : (ℓ : Loc nD τ sig) → Buf (Elt Ideal) ℓ) (ρ : Dev nD → PrngReg)

open Cert.KernelPoints

/-- WHAT POINT t WRITES BACK is block t of the layer of the argument arrays. -/
theorem flushed_eq (c : Dev nD) (t : Fin cfg0.N) :
    (dats m 0 c).flushed 5 t = ((cfg0.win 5).blk t).view.read (Elt Ideal)
      (layerOut (m ((c : Thread nD τ).loc main_arg0)) (m ((c : Thread nD τ).loc main_arg1))
        (m ((c : Thread nD τ).loc main_arg2)) (m ((c : Thread nD τ).loc main_arg3))) := by
  rw [Value.flushed5]
  unfold out0_5
  rw [View.canon_unit_zero hz]
  simp only [View.ld_unit_zero (S := S5000x128) hz, View.ld_unit_zero (S := S128x128) hz,
    View.ld_unit_zero (S := S5000x1) hz, View.ld_unit_zero (S := S1x128) hz]
  funext j
  obtain ⟨q, o, rfl⟩ : ∃ (q : Fin 5000) (o : Fin 128), j = ix2 q o := ⟨j 0, j 1, eq_ix2 (n0 := 5000) (n1 := 128) j⟩
  obtain ⟨-, -, -, -, -, -, -, -, -, -, e0, e1⟩ := idx_facts t
  have ht := point_lt t
  have hemb : ((cfg0.win 5).blk t).view.emb (ix2 q o) = ix2 (⟨5000 * t.val + q.val, by omega⟩ : Fin 50000) o := by
    funext a; apply Fin.ext
    match a with
    | ⟨0, _⟩ => show win0_5.index t 0 * 5000 + 1 * q.val = 5000 * t.val + q.val; rw [e0]; omega
    | ⟨1, _⟩ => show win0_5.index t 1 * 128 + 1 * o.val = o.val; rw [e1]; omega
  show k0_pay1 (F := Ideal) (iblk m c 0 t) (iblk m c 1 t) (iblk m c 3 t) (iblk m c 2 t) (iblk m c 4 t) (ix2 q o)
    = layerOut _ _ _ _ (((cfg0.win 5).blk t).view.emb (ix2 q o))
  rw [hemb]
  refine KernelPointValue.point_value (iblk m c 0 t) (iblk m c 1 t) (iblk m c 3 t) (iblk m c 2 t) (iblk m c 4 t)
    (m ((c : Thread nD τ).loc main_arg0)) (m ((c : Thread nD τ).loc main_arg1))
    (m ((c : Thread nD τ).loc main_arg2)) (m ((c : Thread nD τ).loc main_arg3)) q o ⟨5000 * t.val + q.val, by omega⟩
    ?_ ?_ ?_ ?_ ?_
  · exact fun k => (read_rows0 t (V m c main_arg0) (ix2 q k) (ix2 ⟨5000 * t.val + q.val, by omega⟩ k) rfl rfl).trans
      (congrFun (V_main_arg0 m c) _)
  · exact fun k => (read_rows1 t (V m c main_v15) (ix2 q k) (ix2 ⟨5000 * t.val + q.val, by omega⟩ k) rfl rfl).trans
      (congrFun (KernelHost.V_aggRows m c) _)
  · exact (read_rows2 t (V m c main_v24) (ix2 q 0) (ix2 ⟨5000 * t.val + q.val, by omega⟩ 0) rfl rfl).trans
      (congrFun (KernelHost.V_invCol m c) _)
  · exact fun k => (read_whole3 t (V m c main_v25) (ix2 k o)).trans (congrFun (KernelHost.V_weightT m c) _)
  · exact (read_whole4 t (V m c main_v26) (ix2 0 o)).trans (congrFun (KernelHost.V_biasRow m c) _)

/-! ## The blocks tile the array -/

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- Every entry of the array lies in some point's block: row r in the block of point r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- THE ARRAY after the run is the layer of the argument arrays. -/
theorem final (c : Dev nD) : (dats m 0 c).arrAt 5 cfg0.N
    = layerOut (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed_eq m c t) covered

/-- The kernel's run: the result array ends at the layer, the arguments unchanged. -/
theorem run : θ_run defs (onTc (τ := τ) (main (F := Ideal))) ⟨m, fun _ => 0, ρ⟩ fun r => ∀ c : Dev nD,
      r.2.mem ((c : Thread nD τ).loc main_v27)
        = layerOut (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelArray

end
-- ==== Proof.RefProject.lean ====
/-
  The reference's projected and biased rows: h = x · Wᵀ + b, read at an entry.

  W is stored output-major and transposed before the product, so the product's entry (r, o) contracts row r of x with
  row o of W; the bias vector is laid out as a row [1, 128] and copied down all rows.
-/
import proofs.«112478_j71159018160288_2_alg».proof.Proof.Gen.ReferenceIdeal.Read
import proofs.«112478_j71159018160288_2_alg».proof.Proof.LayerSpec

noncomputable section

open scoped BigOperators

namespace Cert.RefRead

open Cert.ReferenceIdeal Cert.ReferenceIdeal.Gen Cert.ReferenceIdeal.Read Idealize.ShloMosaic
  Idealize.ShloMosaic.ValueIdx Cert.MeanLayer

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

/-- A projected and biased row at (r, o): Σ_c x(r,c)·W(o,c) + b(o). -/
theorem proj_read (r : Fin 50000) (o : Fin 128) :
    val_main_v4 (F := Ideal) x0 x2 x3 (ix2 r o) = (∑ k : Fin 128, x0 (ix2 r k) * x2 (ix2 o k)) + x3 (ix1 o) := by
  have el : ∀ k : Fin 128, lidx_main_v1 (ix2 r o) k = ix2 r k := fun k =>
    funext fun a => Fin.ext (by match a with | ⟨0, _⟩ => rfl | ⟨1, _⟩ => rfl)
  have er : ∀ k : Fin 128, idx_main_v0 (ridx_main_v1 (ix2 r o) k) = ix2 o k := fun k =>
    funext fun a => Fin.ext (by match a with | ⟨0, _⟩ => rfl | ⟨1, _⟩ => rfl)
  have eb : idx_main_v2 (idx_main_v3 (ix2 r o)) = ix1 o :=
    funext fun a => Fin.ext (by match a with | ⟨0, _⟩ => rfl)
  rw [val_main_v4_apply, val_main_v1_apply, val_main_v3_apply, val_main_v2_apply, eb]
  simp only [val_main_v0_apply, el, er, Ideal.addf_def]

end Cert.RefRead

end
-- ==== Proof.RefAggregate.lean ====
/-
  The reference's aggregate, read at an entry.

  The projected rows h are gathered at the rows the edges read (h[src]) and added, from a zero array, into the rows
  the edges end in (a segment sum). At (n, o): the sum, over the edges e that end in n, of h(row e, o).
-/
import proofs.«112478_j71159018160288_2_alg».proof.Proof.RefColumns
import proofs.«112478_j71159018160288_2_alg».proof.Proof.RefProject
import proofs.«112478_j71159018160288_2_alg».proof.Proof.LibRowScatterAdd

noncomputable section

open scoped BigOperators

namespace Cert.RefRead

open Cert.ReferenceIdeal Cert.ReferenceIdeal.Gen Cert.ReferenceIdeal.Read Idealize.ShloMosaic
  Idealize.ShloMosaic.ValueIdx Cert.MeanLayer

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

theorem gatherRec_eq : gather_S50000x128_S800000x1_S800000x128_1_0_n_n_0_1_1128
    = SegmentRows.rowGatherDims 50000 800000 128 Facts₀.gather_S50000x128_S800000x1_S800000x128_1_0_n_n_0_1_1128_wf := rfl

theorem rowScatterRec_eq : scatter_S50000x128_S800000x1_S800000x128_1_0_0_1
    = SegmentRows.rowScatterDims 50000 800000 128 Facts₀.scatter_S50000x128_S800000x1_S800000x128_1_0_0_1_wf := rfl

/-- The row an edge's gather reads is the layer's. -/
theorem row_read (e : Fin 800000) :
    SegmentRows.rowOf (N := 50000) (by norm_num) (val_main_v14 (F := Ideal) x1) e = srcRow x1 e := by
  unfold SegmentRows.rowOf srcRow
  exact Fin.ext (by simp only [src_read])

/-- The gathered rows at (e, o): the projected row the edge reads. -/
theorem gathered_read (e : Fin 800000) (o : Fin 128) :
    val_main_v15 (F := Ideal) x0 x1 x2 x3 (ix2 e o)
      = (∑ k : Fin 128, x0 (ix2 (srcRow x1 e) k) * x2 (ix2 o k)) + x3 (ix1 o) := by
  unfold val_main_v15
  rw [gatherRec_eq]
  refine (SegmentRows.gather_rows_apply _ (val_main_v14 (F := Ideal) x1) e o (by norm_num)
    (val_main_v4 (F := Ideal) x0 x2 x3)).trans ?_
  rw [row_read, proj_read]

/-- The aggregate at (n, o): the projected rows the in-edges of n read, summed. -/
theorem agg_read (n : Fin 50000) (o : Fin 128) :
    val_main_v18 (F := Ideal) x0 x1 x2 x3 (ix2 n o)
      = ∑ e : Fin 800000, if endsAt x1 n e
          then ((∑ k : Fin 128, x0 (ix2 (srcRow x1 e) k) * x2 (ix2 o k)) + x3 (ix1 o)) else 0 := by
  unfold val_main_v18
  rw [rowScatterRec_eq]
  refine (RowScatterAdd.scatterAdd_rows_apply _ (val_main_v16 (F := Ideal)) (val_main_v17 (F := Ideal) x1)
    (val_main_v15 (F := Ideal) x0 x1 x2 x3) n o).trans ?_
  rw [val_main_v16_apply, val_main_cst_apply, Ideal.ofBits_def, Ideal.ofBits_zero_f32, zero_add]
  refine Finset.sum_congr rfl fun e _ => ?_
  rw [tgt_read, gathered_read]

end Cert.RefRead

end
-- ==== Proof.LibIntScatter.lean ====
/-
  An integer scatter with an add body, read at an entry; the in-degree count it produces from ones; and that count,
  one added, converted to a float.

  stablehlo.scatter applies its update elements one after the other (here in row-major order), each replacing the
  result's element at the update's result index by the body of that element and the update's, and dropping an update
  whose result index falls outside the operand. When the body is an addition in a commutative monoid the order does
  not matter: the result at i is the operand's entry plus the sum of the update elements whose result index is i.

  For a vector of N counters, an [E, 1] column of scatter indices and E updates all equal to the 32-bit word 1, from
  zero counters, the entry n is therefore the word of k(n), the number of positions e whose index, read signed, is n.
  Since k(n) ≤ E, for E + 1 < 2^31 the word of k(n) + 1 read as a signed integer is k(n) + 1 itself, so its
  conversion to a float is the real number k(n) + 1 — the same number a float scatter-add of E ones, one added,
  arrives at: 0 + Σ_e [index e = n] · 1 + 1.
-/
import Mathlib.Data.BitVec
import Idealize.ShloMosaic.Lib.ValueIdx
import Idealize.ShloMosaic.PureOps.Ideal.Laws
import proofs.«112478_j71159018160288_2_alg».proof.Proof.LibChannelForms

noncomputable section

open scoped BigOperators

namespace Cert.IntScatter

open Idealize.ShloMosaic Idealize.ShloMosaic.ValueIdx

/-! ## A scatter whose body adds, at an entry -/

/-- THE SCATTER WITH AN ADDING BODY AT i: the operand's entry plus the update elements whose result index is i. -/
theorem scatter_add_apply {s si u : Shape} {w : Nat} {α : Type} [AddCommMonoid α] (d : ScatterDims s si u)
    (f : α → α → α) (hf : ∀ a b, f a b = a + b) (x : s.Idx → α) (idx : IVec si w) (upd : u.Idx → α) (i : s.Idx) :
    Host.scatter d f x idx upd i = x i + ∑ j : u.Idx, if d.resultIdx? j idx = some i then upd j else 0 := by
  unfold Host.scatter
  rw [← Equiv.sum_comp u.rowMajor.symm, Fin.sum_univ_def]
  generalize List.finRange u.numel = l
  induction l generalizing x with
  | nil => simp
  | cons a l ih =>
    rw [List.foldl_cons, ih, List.map_cons, List.sum_cons, ← add_assoc]
    congr 1
    cases hres : d.resultIdx? (u.rowMajor.symm a) idx with
    | none => simp
    | some j =>
      by_cases hij : i = j
      · subst hij
        simp [hf]
      · have hne : ¬ (some j = some i) := fun h => hij (Option.some.inj h).symm
        simp [hij, hne]

/-! ## Counting with 32-bit words -/

/-- How many positions e carry the signed index n. -/
def count {N E w : Nat} (idx : IVec ⟨2, ![E, 1]⟩ w) (n : Fin N) : Nat :=
  (Finset.univ.filter fun e : Fin E => (idx (ix2 e 0)).toInt = (n.val : Int)).card

theorem count_le {N E w : Nat} (idx : IVec ⟨2, ![E, 1]⟩ w) (n : Fin N) : count idx n ≤ E := by
  unfold count
  exact (Finset.card_filter_le _ _).trans (by simp)

/-- A sum of the word 1 over the positions with a property is the word of their number. -/
theorem sum_word_ones {E : Nat} (P : Fin E → Prop) [DecidablePred P] :
    (∑ e : Fin E, if P e then (1#32 : BitVec 32) else 0) = BitVec.ofNat 32 (Finset.univ.filter P).card := by
  have h1 : (1#32 : BitVec 32) = 1 := rfl
  rw [h1, Finset.sum_boole, BitVec.natCast_eq_ofNat]

/-- A sum of the real 1 over the positions with a property is their number. -/
theorem sum_real_ones {E : Nat} (P : Fin E → Prop) [DecidablePred P] :
    (∑ e : Fin E, if P e then (1 : ℝ) else 0) = ((Finset.univ.filter P).card : ℝ) := by
  rw [Finset.sum_boole]

/-- The word of a number below 2^31, read signed, is that number. -/
theorem toInt_ofNat_small {k : Nat} (hk : k < 2 ^ 31) : (BitVec.ofNat 32 k).toInt = (k : Int) := by
  have hlt : 2 * (BitVec.ofNat 32 k).toNat < 2 ^ 32 := by
    rw [BitVec.toNat_ofNat]
    have : k % 2 ^ 32 = k := Nat.mod_eq_of_lt (by omega)
    omega
  rw [BitVec.toInt_eq_toNat_of_lt hlt, BitVec.toNat_ofNat, Nat.mod_eq_of_lt (by omega)]

end Cert.IntScatter

end
-- ==== Proof.RefDegree.lean ====
/-
  The reference's divisor, read at an entry.

  The in-degree of every node is counted with 32-bit integer words: a scatter, with an integer add, of the word 1 for
  every edge into a vector of zero words, at the edges' end words. One is added, the word is converted to a float, and
  the vector is laid out as a column and copied along the rows. Since a node has at most 800000 in-edges the count plus
  one stays below 2^31, the signed reading of its word is the count plus one, and the divisor at (n, o) is the real
  number (in-degree of n) + 1.
-/
import proofs.«112478_j71159018160288_2_alg».proof.Proof.RefColumns
import proofs.«112478_j71159018160288_2_alg».proof.Proof.LibIntScatter

noncomputable section

open scoped BigOperators

namespace Cert.RefRead

open Cert.ReferenceIdeal Cert.ReferenceIdeal.Gen Cert.ReferenceIdeal.Read Idealize.ShloMosaic
  Idealize.ShloMosaic.ValueIdx Cert.MeanLayer

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

theorem vecScatterRec_eq : scatter_S50000_S800000x1_S800000_n_0_0_1
    = ChannelForms.vecScatterDims 50000 800000 Facts₀.scatter_S50000_S800000x1_S800000_n_0_0_1_wf := rfl

/-- The in-degree count of n, as the 32-bit word the integer scatter of ones leaves. -/
theorem count_read (n : Fin 50000) :
    val_main_v22 (F := Ideal) x1 (ix1 n) = BitVec.ofNat 32 (Finset.univ.filter (endsAt x1 n)).card := by
  unfold val_main_v22
  rw [vecScatterRec_eq]
  refine (IntScatter.scatter_add_apply _ IntOp.addi (fun _ _ => rfl) _ _ _ _).trans ?_
  rw [ChannelForms.sum_idx1, val_main_v20_apply, val_main_c_2_apply]
  simp only [ChannelForms.resultIdx?_vec_eq_some_iff, tgt_read', val_main_v19_apply, val_main_c_1_apply]
  rw [IntScatter.sum_word_ones]
  exact BitVec.zero_add _

/-- The word of the count plus one, read signed, is the count plus one. -/
theorem countWord_toInt (k : Nat) (hk : k ≤ 800000) :
    (IntOp.addi (BitVec.ofNat 32 k) 1#32).toInt = ((k + 1 : Nat) : Int) := by
  have hw : IntOp.addi (BitVec.ofNat 32 k) 1#32 = BitVec.ofNat 32 (k + 1) := by
    unfold IntOp.addi
    rw [BitVec.ofNat_add]
  rw [hw]
  exact IntScatter.toInt_ofNat_small (by omega)

/-- The divisor at (n, o): the real number (in-degree of n) + 1. -/
theorem deg_read (n : Fin 50000) (o : Fin 128) :
    val_main_v28 (F := Ideal) x1 (ix2 n o)
      = (((∑ e : Fin 800000, if endsAt x1 n e then (1 : ℝ) else 0) + 1 : ℝ) : EReal) := by
  have hidx : idx_main_v27 (idx_main_v28 (ix2 n o)) = ix1 n :=
    funext fun a => Fin.ext (by match a with | ⟨0, _⟩ => rfl)
  rw [val_main_v28_apply, val_main_v27_apply, val_main_v26_apply, val_main_v25_apply, hidx, count_read,
    val_main_v24_apply, val_main_c_3_apply, IntScatter.sum_real_ones]
  have hle : (Finset.univ.filter (endsAt x1 n)).card ≤ 800000 :=
    (Finset.card_filter_le _ _).trans (le_of_eq (by rw [Finset.card_univ, Fintype.card_fin]))
  refine congrArg (fun r : ℝ => (r : EReal)) ?_
  show (((IntOp.addi (BitVec.ofNat 32 (Finset.univ.filter (endsAt x1 n)).card) 1#32).toInt : ℤ) : ℝ) = _
  rw [countWord_toInt _ hle]
  push_cast
  ring

end Cert.RefRead

end
-- ==== Proof.RefIsLayer.lean ====
/-
  The reference is the layer.

  Entry by entry the reference's result is the quotient of (own projected row + aggregate of projected rows) by the real
  number (in-degree + 1): the layer in the arrangement "project every row first". For real entries the law of MeanLaw
  turns it into the arrangement "aggregate the raw rows first", which is how the layer is stated.
-/
import proofs.«112478_j71159018160288_2_alg».proof.Proof.RefAggregate
import proofs.«112478_j71159018160288_2_alg».proof.Proof.RefDegree

noncomputable section

open scoped BigOperators

namespace Cert.RefRead

open Cert.ReferenceIdeal Cert.ReferenceIdeal.Gen Cert.ReferenceIdeal.Read Idealize.ShloMosaic
  Idealize.ShloMosaic.ValueIdx Cert.MeanLayer

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

/-- THE REFERENCE AT (n, o), in the arrangement "project first". -/
theorem ref_read (n : Fin 50000) (o : Fin 128) :
    val_main_v29 (F := Ideal) x0 x1 x2 x3 (ix2 n o)
      = MeanLaw.projectThenAggregate (endsAt x1 n) (fun k : Fin 128 => x0 (ix2 n k))
          (fun e k => x0 (ix2 (srcRow x1 e) k)) (fun k => x2 (ix2 o k)) (x3 (ix1 o))
          (((∑ e : Fin 800000, if endsAt x1 n e then (1 : ℝ) else 0) + 1 : ℝ) : EReal) := by
  unfold MeanLaw.projectThenAggregate
  rw [val_main_v29_apply, val_main_v23_apply, proj_read, agg_read, deg_read, Ideal.hostDivf_def, Ideal.addf_def]

/-- For real entries the reference's result is the layer. -/
theorem ref_eq_layerOut (hx : ∀ i, ∃ r : ℝ, x0 i = (r : EReal)) (hW : ∀ i, ∃ r : ℝ, x2 i = (r : EReal))
    (hb : ∀ i, ∃ r : ℝ, x3 i = (r : EReal)) :
    val_main_v29 (F := Ideal) x0 x1 x2 x3 = layerOut x0 x1 x2 x3 := by
  funext i
  obtain ⟨n, o, rfl⟩ : ∃ (n : Fin 50000) (o : Fin 128), i = ix2 n o := ⟨i 0, i 1, eq_ix2 i⟩
  rw [ref_read, layerOut_apply]
  exact MeanLaw.commute_ereal _ _ _ _ _ (fun k => hx _) (fun e k => hx _) (fun k => hW _) (hb _)

end Cert.RefRead

end
-- ==== Proof.FiniteInputs.lean ====
/-
  Finite inputs are real numbers.

  The precondition says, of each float argument array, that every entry's absolute value is below +infinity (the three
  all-reductions by "and" of the entrywise comparisons, joined by "and", are the bit 1). On the extended reals
  |v| = max v (-v), and max v (-v) < ⊤ fails exactly at the two infinities (|±∞| = ⊤): so every entry of x, W and b is a
  real number. This is what distributivity and cancellation in the layer's law need.
-/
import proofs.«112478_j71159018160288_2_alg».proof.Pre_finite_inputs
import proofs.«112478_j71159018160288_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.FiniteInputs

open Idealize.ShloMosaic Cert.Pre_finite_inputs Cert.Pre_finite_inputs.Gen

instance : Subsingleton S_.Idx := ⟨fun a b => funext fun d => d.elim0⟩

/-- The f32 word 0x7F800000 is +infinity. -/
theorem ofBits_inf : Ideal.ofBits .f32 0x7F800000#32 = ⊤ := by simp [Ideal.ofBits, Ideal.ieee]

/-- An extended real whose absolute value is below +infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- The entrywise test of an array, at an entry that passed it. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  refine real_of_abs_lt_inf (x i) ?_
  have hc : broadcastInDim s ![] hb (constant (F := Ideal) S_ .f32 0x7F800000#32) i = Ideal.ofBits .f32 0x7F800000#32 :=
    broadcastInDim_apply _ hb _ i ValueIdx.ix0 (fun a => a.elim0)
  rw [← hc]
  exact h

/-- An entrywise "and" of two bit arrays at an entry. -/
theorem andi_apply {s : Shape} (a b : IVec s 1) (i : s.Idx) : andi a b i = IntOp.andi (a i) (b i) := rfl

/-- THE PRECONDITION GIVES REAL ENTRIES: of x, of W and of b. -/
theorem reals_of_pre (x0 : FVec Ideal S50000x128 .f32) (x1 : IVec S2x800000 32) (x2 : FVec Ideal S128x128 .f32)
    (x3 : FVec Ideal S128 .f32) (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [fn] at h0
  rw [andi_apply, andi_apply] at h0
  obtain ⟨h02, h3⟩ := IntOp.andi_eq_one.1 h0
  obtain ⟨h0', h2⟩ := IntOp.andi_eq_one.1 h02
  exact ⟨fun i => entry_real x0 _ i (Host.reduce_andi_all _ _ _ _ _ h0' i),
    fun i => entry_real x2 _ i (Host.reduce_andi_all _ _ _ _ _ h2 i),
    fun i => entry_real x3 _ i (Host.reduce_andi_all _ _ _ _ _ h3 i)⟩

end Cert.FiniteInputs

end
-- ==== Proof.lean ====
/-
  A graph layer with self loops and mean normalisation: the kernel against its reference, over the extended reals.

  Arguments: node features x : [50000, 128], an edge list [2, 800000] of 32-bit words (row 0: the node an edge ends in,
  row 1: the node it starts from), weights W : [128, 128] (output-major) and a bias b : [128]. With k(n) the number of
  edges that end in node n and row(e) the row an edge reads, both programs compute, at (n, o),

      ( h(n, o) + Σ_{e ends in n} h(row e, o) ) / (k(n) + 1),      h(r, o) = Σ_c x(r, c)·W(o, c) + b(o).

  The reference does exactly this: it projects every row, gathers and segment-sums the projected rows, counts k(n) with
  32-bit integers and divides. The kernel uses that the projection is linear: on the host it segment-sums the RAW rows,
  A(n, c) = Σ_{e ends in n} x(row e, c), counts k(n) in floats and takes R(n) = 1 / (k(n) + 1); one kernel launch over
  ten blocks of 5000 rows then stores ((x + A)·Wᵀ)·R + b. The two agree because
      Σ_c (x(n,c) + A(n,c))·W(o,c) = Σ_c x(n,c)·W(o,c) + Σ_{e ends in n} Σ_c x(row e,c)·W(o,c)
  and the k(n) + 1 biases divided by k(n) + 1 are one bias: distributivity and cancellation, valid for real entries —
  which the precondition (every float input finite) provides — and k(n) + 1 ≥ 1 is never zero. Rounding to bf16 on
  the way into the gather and the matrix unit is the identity on extended reals; the integer count cannot wrap since
  k(n) ≤ 800000.

  The modules: MeanLaw (the law), LayerSpec (the layer as one function of the arguments), RefColumns / RefProject /
  RefAggregate / RefDegree / RefIsLayer (the reference entry by entry is the layer), KernelHost (what the region finds in
  its windows' arrays), KernelBlock (what a grid point stores), KernelArray (the ten blocks tile the result: it is the
  layer), FiniteInputs (finite inputs are real). The kernel's frame and the blockwise run, and the reference's run and
  its read-at-an-index lemmas, are the generated modules imported below.
-/
import proofs.«112478_j71159018160288_2_alg».proof.Defs
import proofs.«112478_j71159018160288_2_alg».proof.Proof.Gen.Kernel
import proofs.«112478_j71159018160288_2_alg».proof.Proof.Gen.Kernel.Skeleton
import proofs.«112478_j71159018160288_2_alg».proof.Proof.Gen.Kernel.Launch
import proofs.«112478_j71159018160288_2_alg».proof.Proof.Gen.Kernel.Points
import proofs.«112478_j71159018160288_2_alg».proof.Proof.Gen.Kernel.Frame
import proofs.«112478_j71159018160288_2_alg».proof.Proof.Gen.KernelIdeal
import proofs.«112478_j71159018160288_2_alg».proof.Proof.Gen.KernelIdeal.Skeleton
import proofs.«112478_j71159018160288_2_alg».proof.Proof.Gen.KernelIdeal.Launch
import proofs.«112478_j71159018160288_2_alg».proof.Proof.Gen.KernelIdeal.Points
import proofs.«112478_j71159018160288_2_alg».proof.Proof.Gen.KernelIdeal.Frame
import proofs.«112478_j71159018160288_2_alg».proof.Proof.Gen.ReferenceIdeal
import proofs.«112478_j71159018160288_2_alg».proof.Proof.Gen.Pre_finite_inputs
import proofs.«112478_j71159018160288_2_alg».proof.Proof.Gen.KernelIdeal.Value
import proofs.«112478_j71159018160288_2_alg».proof.Proof.Gen.ReferenceIdeal.Run
import proofs.«112478_j71159018160288_2_alg».proof.Proof.Gen.ReferenceIdeal.Read
import proofs.«112478_j71159018160288_2_alg».proof.Proof.KernelArray
import proofs.«112478_j71159018160288_2_alg».proof.Proof.RefIsLayer
import proofs.«112478_j71159018160288_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on finite arguments, both programs end with the layer of those arguments. -/
theorem algebraic : Cert.algebraic_KernelIdeal_ReferenceIdeal := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨hx, hW, hb⟩ := Cert.FiniteInputs.reals_of_pre _ _ _ _ (hpre c)
  exact (Cert.ReferenceIdeal.Read.val_main_v29_eq (F := Ideal) _ _ _ _).trans
    (Cert.RefRead.ref_eq_layerOut _ _ _ _ hx hW hb)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
